-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 42
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S50000x128, .f32⟩
  | .hbm, ⟨23, _⟩ => ⟨S625000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S_, .i32⟩
  | .hbm, ⟨28, _⟩ => ⟨S625000, .i32⟩
  | .hbm, ⟨29, _⟩ => ⟨S625000, .i1⟩
  | .hbm, ⟨30, _⟩ => ⟨S_, .i32⟩
  | .hbm, ⟨31, _⟩ => ⟨S625000, .i32⟩
  | .hbm, ⟨32, _⟩ => ⟨S625000, .i32⟩
  | .hbm, ⟨33, _⟩ => ⟨S625000, .i32⟩
  | .hbm, ⟨34, _⟩ => ⟨S625000x1, .i32⟩
  | .hbm, ⟨35, _⟩ => ⟨S625000x128, .f32⟩
  | .hbm, ⟨36, _⟩ => ⟨S_, .f32⟩
  | .hbm, ⟨37, _⟩ => ⟨S50000x128, .f32⟩
  | .hbm, ⟨38, _⟩ => ⟨S625000x1, .i32⟩
  | .hbm, ⟨39, _⟩ => ⟨S50000x128, .f32⟩
  | .hbm, ⟨40, _⟩ => ⟨S1x128, .f32⟩
  | .hbm, ⟨41, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .i32⟩
  | .hbm, ⟨13, _⟩ => ⟨S625000, .i32⟩
  | .hbm, ⟨14, _⟩ => ⟨S625000, .i1⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S625000, .i32⟩
  | .hbm, ⟨19, _⟩ => ⟨S625000x1, .i32⟩
  | .hbm, ⟨20, _⟩ => ⟨S625000x128, .f32⟩
  | .hbm, ⟨21, _⟩ => ⟨S_, .f32⟩
  | .hbm, ⟨22, _⟩ => ⟨S50000x128, .f32⟩
  | .hbm, ⟨23, _⟩ => ⟨S625000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000x128, .f32⟩
  | .hbm, ⟨43, _⟩ => ⟨S_, .f32⟩
  | .hbm, ⟨44, _⟩ => ⟨S50000x128, .f32⟩
  | .hbm, ⟨45, _⟩ => ⟨S625000x1, .i32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer graph convolution, as functions of whole arrays read index by index on the extended reals.

  One dense layer takes the aggregated neighbour features `A`, the node features `h`, two square weight matrices and a
  bias row, and gives at node `n` and channel `c`

      (∑ k, A (n, k) * Wrel (k, c)) + b (0, c) + (∑ k, h (n, k) * Wroot (k, c)),

  the first layer followed by a clamp at zero from below. The additions associate to the left, as both programs
  write them; nothing here depends on how the sums over `k` are ordered or tiled.
-/
import Idealize.ShloMosaic.PureOps.Ideal
import Idealize.ShloMosaic.Lib.ValueIdx

noncomputable section

namespace Cert.GraphConv

open Idealize.ShloMosaic Idealize.ShloMosaic.ValueIdx

/-- Node features: 50000 nodes by 128 channels. -/
abbrev SN : Shape := ⟨2, ![50000, 128]⟩
/-- A weight matrix: 128 by 128. -/
abbrev SW : Shape := ⟨2, ![128, 128]⟩
/-- A bias as a row: 1 by 128. -/
abbrev SB : Shape := ⟨2, ![1, 128]⟩

/-- A bias vector of 128 channels laid out as a row: entry (0, c) is the vector's entry c. -/
def row (b : (⟨1, ![128]⟩ : Shape).Idx → EReal) : SB.Idx → EReal := fun j => b (ix1 (j 1))

/-- One dense layer at a node and a channel: the aggregate times its weights, plus the bias, plus the node's own
    features times theirs. -/
def dense (A h : SN.Idx → EReal) (Wrel Wroot : SW.Idx → EReal) (b : SB.Idx → EReal) : SN.Idx → EReal :=
  fun i => (∑ k : Fin 128, A (ix2 (i 0) k) * Wrel (ix2 k (i 1))) + b (ix2 0 (i 1))
    + ∑ k : Fin 128, h (ix2 (i 0) k) * Wroot (ix2 k (i 1))

/-- The first layer: the dense layer clamped at zero from below. -/
def denseRelu (A h : SN.Idx → EReal) (Wrel Wroot : SW.Idx → EReal) (b : SB.Idx → EReal) : SN.Idx → EReal :=
  fun i => max (dense A h Wrel Wroot b i) (Ideal.ofBits .f32 0x00000000#32)

end Cert.GraphConv

end
-- ==== Proof.KernelRun.lean ====
/-
  The idealized kernel's run with its result array named.

  The program is four stretches in a row: host operations, the first layer's kernel over its grid, host operations,
  the second layer's kernel over its grid. The generated frame folds the buffers' contents through these stretches
  (`Gen.W0 … Gen.W4`) and proves that every weakly fair execution ends with every unscoped buffer at the last
  fold `Gen.W4`. Here that run is read at the result buffer as well as at the arguments: the result array ends at
  `Gen.W4` of its buffer, the arguments end as launched.
-/
import proofs.«133061_j57071525429602_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last fold of
    the buffers' contents, and each argument array ends as it was launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelHost.lean ====
/-
  What the host operations around the two kernels hand to them, as functions of the launched arrays.

  Before each layer's kernel the host builds the neighbour aggregate: it reads the source and destination rows of the
  edge list, wraps negative source indices round by the number of nodes, gathers the features' rows by source and adds
  them up by destination into a zero array. It also lays the bias vector out as a row. Nothing here opens the gather
  or the addition by destination: the aggregate stays one closed function `aggOf` of the two index vectors and the
  features, spelt exactly as the program spells it, so that the same function meets itself on the other side.
-/
import proofs.«133061_j57071525429602_1_alg».proof.Proof.Gen.KernelIdeal.Frame
import proofs.«133061_j57071525429602_1_alg».proof.Proof.Spec
import Idealize.ShloMosaic.Lib.Pipeline.Value
import Idealize.ShloMosaic.Lib.StableHlo.Run

set_option maxRecDepth 16384

noncomputable section

namespace Cert.KernelIdeal.HostValue

open Cert.KernelIdeal Cert.KernelIdeal.Gen Cert.GraphConv
open Idealize.ShloMosaic Idealize.ShloMosaic.TcCoe Idealize.ShloMosaic.ValueIdx Idealize.SL.Sem Idealize.ShloMosaic.StableHlo

/-- The neighbour aggregate from the source indices `src`, the destination indices `dst` and the features `h`:
    rows of `h` gathered at the wrapped sources, added by destination into zeros. -/
def aggOf (src dst : IVec S625000 32) (h : FVec Ideal S50000x128 .f32) : FVec Ideal S50000x128 .f32 :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 dst)
    (Host.gather gather_S50000x128_S625000x1_S625000x128_1_0_n_n_0_1_1128 h
      (broadcastInDim S625000x1 ![0] bcast_S625000_S625000x1_0
        (select (cmpi .slt src (broadcastInDim S625000 ![] bcast_S_S625000 (constantI S_ 32 0#32)))
          (addi src (broadcastInDim S625000 ![] bcast_S_S625000 (constantI S_ 32 50000#32)))
          src)))

/-- Row 0 of the edge list: the source indices. -/
def srcOf (ei : IVec S2x625000 32) : IVec S625000 32 :=
  shapeCast _ (extractStridedSlice S1x625000 ![0, 0] ei slices_S2x625000_S1x625000_0_0) shapeCasts_S1x625000_S625000
/-- Row 1 of the edge list: the destination indices. -/
def dstOf (ei : IVec S2x625000 32) : IVec S625000 32 :=
  shapeCast _ (extractStridedSlice S1x625000 ![1, 0] ei slices_S2x625000_S1x625000_1_0) shapeCasts_S1x625000_S625000

/-- The neighbour aggregate of the features `h` over the edge list `ei`. -/
def agg (ei : IVec S2x625000 32) (h : FVec Ideal S50000x128 .f32) : FVec Ideal S50000x128 .f32 :=
  aggOf (srcOf ei) (dstOf ei) h

/-- A vector of 128 entries reshaped to a row is the specification's row: entry (0, c) is entry c. -/
theorem reshape_row (b : FVec Ideal S128 .f32) : (shapeCast S1x128 b shapeCasts_S128_S1x128 : SB.Idx → EReal) = row b := by
  funext j
  unfold row
  refine shapeCast_apply b shapeCasts_S128_S1x128 j (ix1 (j 1)) ?_
  rw [Shape.rowMajor_val_two, Shape.rowMajor_val_one]
  have h0 : (j 0).val < 1 := (j 0).isLt
  show (j 1).val = (j 0).val * 128 + (j 1).val
  omega

variable (m : (ℓ : Loc nD τ sig) → Buf (Elt Ideal) ℓ) (ρ : Dev nD → PrngReg)

/-! ## What the first layer's kernel finds -/

theorem V1_v13 (c : Dev nD) : (V1 m ρ c main_v13 : S50000x128.Idx → EReal)
    = agg (m ((c.tc : Thread nD τ).loc main_arg1)) (m ((c.tc : Thread nD τ).loc main_arg0)) := by
  show StableHlo.after hostOps0 (W0 m ρ c) (Proc.devRef .tc main_v13) = _
  dsimp only [hostOps0]
  after_results
  rfl

theorem V1_v14 (c : Dev nD) : (V1 m ρ c main_v14 : SB.Idx → EReal) = row (m ((c.tc : Thread nD τ).loc main_arg3)) := by
  rw [← reshape_row]
  show StableHlo.after hostOps0 (W0 m ρ c) (Proc.devRef .tc main_v14) = _
  dsimp only [hostOps0]
  after_results
  rfl

theorem V1_arg0 (c : Dev nD) : V1 m ρ c main_arg0 = (m ((c.tc : Thread nD τ).loc main_arg0)) := by
  show StableHlo.after hostOps0 (W0 m ρ c) (Proc.devRef .tc main_arg0) = _
  dsimp only [hostOps0]
  after_results

theorem V1_arg2 (c : Dev nD) : V1 m ρ c main_arg2 = (m ((c.tc : Thread nD τ).loc main_arg2)) := by
  show StableHlo.after hostOps0 (W0 m ρ c) (Proc.devRef .tc main_arg2) = _
  dsimp only [hostOps0]
  after_results

theorem V1_arg4 (c : Dev nD) : V1 m ρ c main_arg4 = (m ((c.tc : Thread nD τ).loc main_arg4)) := by
  show StableHlo.after hostOps0 (W0 m ρ c) (Proc.devRef .tc main_arg4) = _
  dsimp only [hostOps0]
  after_results

/-! ## What the second layer's kernel finds, from what the first layer's kernel left -/

/-- The source indices are still where the first stretch of host operations put them. -/
theorem W2_v1 (c : Dev nD) : (W2 m ρ c (Proc.devRef .tc main_v1) : S625000.Idx → BitVec 32) = srcOf (m ((c.tc : Thread nD τ).loc main_arg1)) := by
  refine (W2_of_ne m ρ c main_v1 (by decide)).trans ?_
  show StableHlo.after hostOps0 (W0 m ρ c) (Proc.devRef .tc main_v1) = _
  dsimp only [hostOps0]
  after_results
  rfl

/-- So are the destination indices. -/
theorem W2_v3 (c : Dev nD) : (W2 m ρ c (Proc.devRef .tc main_v3) : S625000.Idx → BitVec 32) = dstOf (m ((c.tc : Thread nD τ).loc main_arg1)) := by
  refine (W2_of_ne m ρ c main_v3 (by decide)).trans ?_
  show StableHlo.after hostOps0 (W0 m ρ c) (Proc.devRef .tc main_v3) = _
  dsimp only [hostOps0]
  after_results
  rfl

theorem W2_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  dsimp only [hostOps0]
  after_results

/-- The first layer's output array, as the second stretch of host operations and the second kernel find it. -/
abbrev hid (c : Dev nD) : S50000x128.Idx → EReal := W2 m ρ c (Proc.devRef .tc main_v15)

theorem V3_v15 (c : Dev nD) : (V3 m ρ c main_v15 : S50000x128.Idx → EReal) = hid m ρ c := by
  show StableHlo.after hostOps1 (W2 m ρ c) (Proc.devRef .tc main_v15) = _
  dsimp only [hostOps1]
  after_results

theorem V3_v25 (c : Dev nD) : (V3 m ρ c main_v25 : S50000x128.Idx → EReal)
    = agg (m ((c.tc : Thread nD τ).loc main_arg1)) (hid m ρ c) := by
  unfold agg
  rw [← W2_v1 m ρ c, ← W2_v3 m ρ c]
  show StableHlo.after hostOps1 (W2 m ρ c) (Proc.devRef .tc main_v25) = _
  dsimp only [hostOps1]
  after_results
  rfl

theorem V3_v26 (c : Dev nD) : (V3 m ρ c main_v26 : SB.Idx → EReal) = row (m ((c.tc : Thread nD τ).loc main_arg6)) := by
  rw [← reshape_row, ← W2_arg6 m ρ c]
  show StableHlo.after hostOps1 (W2 m ρ c) (Proc.devRef .tc main_v26) = _
  dsimp only [hostOps1]
  after_results
  rfl

/-- The second layer's weights are read through input windows, which leave their arrays as found. -/
theorem V3_arg5 (c : Dev nD) : V3 m ρ c main_arg5 = (m ((c.tc : Thread nD τ).loc main_arg5)) :=
  ((W4_arr m ρ c 2).trans (((dat1 (V3 m ρ) c).arrAt_in 2 rfl _).trans (A_eq1 (V3 m ρ) c 2))).symm.trans (W4_main_arg5 m ρ c)

theorem V3_arg7 (c : Dev nD) : V3 m ρ c main_arg7 = (m ((c.tc : Thread nD τ).loc main_arg7)) :=
  ((W4_arr m ρ c 4).trans (((dat1 (V3 m ρ) c).arrAt_in 4 rfl _).trans (A_eq1 (V3 m ρ) c 4))).symm.trans (W4_main_arg7 m ρ c)

end Cert.KernelIdeal.HostValue

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.Body.lean ====
/-
  What one block of a dense graph-convolution layer holds, entry by entry, on the extended reals.

  A block of 5000 nodes is computed from the block's rows of the aggregate `A` and of the features `h`, the two
  128 by 128 weight matrices and the bias row. Changing the float format on the way into a product is the identity
  on the extended reals, a product into a zero accumulator is the plain sum over the shared axis, and the bias row is
  repeated on every row. So entry (p, q) of the block is

      (∑ k, A (p, k) * Wrel (k, q)) + b (0, q) + ∑ k, h (p, k) * Wroot (k, q),

  clamped at zero from below in the first layer and left as it is in the second.
-/
import proofs.«133061_j57071525429602_1_alg».proof.Proof.Gen.KernelIdeal.Skeleton
import proofs.«133061_j57071525429602_1_alg».proof.Proof.LibMatmulSum
import Idealize.ShloMosaic.Lib.Pipeline.Value
import Idealize.ShloMosaic.Lib.ValueLayout

noncomputable section

open Idealize.ShloMosaic Idealize.ShloMosaic.ValueIdx

namespace Cert.KernelIdeal.RegionValue

open Cert.KernelIdeal Cert.KernelIdeal.Gen

/-- A product of a 5000 by 128 block with a 128 by 128 matrix into the zero accumulator, the operands' formats
    narrowed on the way in: at (p, q), the sum over the shared axis. -/
theorem product_apply (x : FVec Ideal S5000x128 .f32) (w : FVec Ideal S128x128 .f32) (p : Fin 5000) (q : Fin 128) :
    FloatOps.matmul dot_S5000x128_S128x128_S5000x128_1_0_0_1_n_n none
        (truncf .bf16 x bitsLt_bf16_f32) (truncf .bf16 w bitsLt_bf16_f32)
        (constant S5000x128 .f32 0x00000000#32) (ix2 p q)
      = ∑ k : Fin 128, x (ix2 p k) * w (ix2 k q) :=
  MatmulSum.matmul_zero_apply dot_S5000x128_S128x128_S5000x128_1_0_0_1_n_n rfl rfl rfl rfl rfl rfl none
    (truncf .bf16 x bitsLt_bf16_f32) (truncf .bf16 w bitsLt_bf16_f32) (ix2 p q)

/-- The bias row repeated over the block's rows: at (p, q), the row's entry q. -/
theorem bias_apply (b : FVec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The first layer's block at (p, q). -/
theorem layer1_block_apply (x0 x1 : Vec Ideal S5000x128 .f32) (x2 x4 : Vec Ideal S128x128 .f32) (x3 : Vec Ideal S1x128 .f32)
    (p : Fin 5000) (q : Fin 128) :
    k0_pay1 x0 x1 x2 x4 x3 (ix2 p q)
      = max ((∑ k : Fin 128, x0 (ix2 p k) * x2 (ix2 k q)) + x3 (ix2 (0 : Fin 1) q) + ∑ k : Fin 128, x1 (ix2 p k) * x4 (ix2 k q))
          (Ideal.ofBits .f32 0x00000000#32) := by
  unfold k0_pay1
  simp only [shapeCast_self]
  refine congrArg₂ max (congrArg₂ (· + ·) (congrArg₂ (· + ·) ?_ ?_) ?_) rfl
  · exact product_apply x0 x2 p q
  · exact bias_apply x3 p q
  · exact product_apply x1 x4 p q

/-- The second layer's block at (p, q). -/
theorem layer2_block_apply (x0 x1 : Vec Ideal S5000x128 .f32) (x2 x4 : Vec Ideal S128x128 .f32) (x3 : Vec Ideal S1x128 .f32)
    (p : Fin 5000) (q : Fin 128) :
    k1_pay1 x0 x1 x2 x4 x3 (ix2 p q)
      = (∑ k : Fin 128, x0 (ix2 p k) * x2 (ix2 k q)) + x3 (ix2 (0 : Fin 1) q) + ∑ k : Fin 128, x1 (ix2 p k) * x4 (ix2 k q) := by
  unfold k1_pay1
  simp only [shapeCast_self]
  refine congrArg₂ (· + ·) (congrArg₂ (· + ·) ?_ ?_) ?_
  · exact product_apply x0 x2 p q
  · exact bias_apply x3 p q
  · exact product_apply x1 x4 p q

end Cert.KernelIdeal.RegionValue

end
-- ==== Proof.Region0.lean ====
/-
  The first layer's kernel, read as one function of whole arrays.

  The kernel walks ten blocks of 5000 nodes. At block t it reads rows 5000 t … 5000 t + 4999 of the aggregate and of
  the features, the two weight matrices and the bias row whole, and writes rows 5000 t … 5000 t + 4999 of its result.
  Entry (p, q) of what it writes is the dense layer at node 5000 t + p and channel q, clamped at zero from below: the
  block's rows are the arrays' rows shifted by 5000 t, and nothing else in the formula depends on the block. Every
  node lies in exactly one block, the one numbered by the node divided by 5000, so the result array ends holding the
  layer at every node.
-/
import proofs.«133061_j57071525429602_1_alg».proof.Proof.Gen.KernelIdeal.Frame
import proofs.«133061_j57071525429602_1_alg».proof.Proof.Spec
import proofs.«133061_j57071525429602_1_alg».proof.Proof.Body
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.GraphConv

variable (V : (c : Dev nD) → (b : Ref sig .tc) → Buf (Elt Ideal) ((c : Thread nD τ).loc b))

theorem zeroOffsets0 : (![0, 0] : Fin 2 → Nat) = fun _ => 0 := funext fun a => by fin_cases a <;> rfl

/-- Where each window's block sits at block t: the three row-blocked windows at block row t, every window at block
    column 0, the whole-array windows at block (0, 0). Decided over the ten blocks. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at t is its rows from 5000 t on. -/
theorem aggBlock0 (c : Dev nD) (t : Fin cfg0.N) (p : Fin 5000) (k : Fin 128) (n : Fin 50000) (hn : n.val = 5000 * t.val + p.val) :
    (iblk0 V c 0 t : Vec Ideal S5000x128 .f32) (ix2 p k) = (V c main_v13 : SN.Idx → EReal) (ix2 n k) := by
  obtain ⟨e0, e1, -⟩ := blockIndex0 t
  unfold iblk0
  rw [View.read_apply]
  show V c main_v13 _ = V c main_v13 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The features' block at t is their rows from 5000 t on. -/
theorem featBlock0 (c : Dev nD) (t : Fin cfg0.N) (p : Fin 5000) (k : Fin 128) (n : Fin 50000) (hn : n.val = 5000 * t.val + p.val) :
    (iblk0 V c 1 t : Vec Ideal S5000x128 .f32) (ix2 p k) = (V c main_arg0 : SN.Idx → EReal) (ix2 n k) := by
  obtain ⟨-, -, e0, e1, -⟩ := blockIndex0 t
  unfold iblk0
  rw [View.read_apply]
  show V c main_arg0 _ = V c main_arg0 _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- The aggregate's weights are read whole at every block. -/
theorem wrelBlock0 (c : Dev nD) (t : Fin cfg0.N) :
    (iblk0 V c 2 t : Vec Ideal S128x128 .f32) = (V c main_arg2 : SW.Idx → EReal) := by
  obtain ⟨-, -, -, -, e0, e1, -⟩ := blockIndex0 t
  funext j
  unfold iblk0
  rw [View.read_apply]
  show V c main_arg2 _ = V c main_arg2 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The bias row is read whole at every block. -/
theorem biasBlock0 (c : Dev nD) (t : Fin cfg0.N) :
    (iblk0 V c 3 t : Vec Ideal S1x128 .f32) = (V c main_v14 : SB.Idx → EReal) := by
  obtain ⟨-, -, -, -, -, -, e0, e1, -⟩ := blockIndex0 t
  funext j
  unfold iblk0
  rw [View.read_apply]
  show V c main_v14 _ = V c main_v14 _
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The features' weights are read whole at every block. -/
theorem wrootBlock0 (c : Dev nD) (t : Fin cfg0.N) :
    (iblk0 V c 4 t : Vec Ideal S128x128 .f32) = (V c main_arg4 : SW.Idx → EReal) := by
  obtain ⟨-, -, -, -, -, -, -, -, e0, e1, -⟩ := blockIndex0 t
  funext j
  unfold iblk0
  rw [View.read_apply]
  show V c main_arg4 _ = V c main_arg4 _
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- Entry (p, q) of the result's block at t is the result array's entry (5000 t + p, q). -/
theorem outEntry0 (t : Fin cfg0.N) (p : Fin 5000) (q : Fin 128) (n : Fin 50000) (hn : n.val = 5000 * t.val + p.val) :
    (((cfg0.win 5).blk t).view.emb (ix2 p q) : SN.Idx) = ix2 n q := by
  obtain ⟨-, -, -, -, -, -, -, -, -, -, e0, e1⟩ := blockIndex0 t
  funext a
  apply Fin.ext
  match a with
  | ⟨0, _⟩ => show win0_5.index t (0 : Fin 2) * 5000 + 1 * p.val = n.val; rw [e0, hn]; omega
  | ⟨1, _⟩ => show win0_5.index t (1 : Fin 2) * 128 + 1 * q.val = q.val; rw [e1]; omega

/-- A block whose rows are the aggregate's and the features' rows at node n holds, at (p, q), the first layer at
    node n and channel q. -/
theorem layer1_rows (x0 x1 : Vec Ideal S5000x128 .f32) (A h : SN.Idx → EReal) (Wrel Wroot : SW.Idx → EReal) (b : SB.Idx → EReal)
    (p : Fin 5000) (q : Fin 128) (n : Fin 50000)
    (h0 : ∀ k : Fin 128, x0 (ix2 p k) = A (ix2 n k)) (h1 : ∀ k : Fin 128, x1 (ix2 p k) = h (ix2 n k)) :
    k0_pay1 x0 x1 Wrel Wroot b (ix2 p q) = denseRelu A h Wrel Wroot b (ix2 n q) := by
  refine (layer1_block_apply x0 x1 Wrel Wroot b p q).trans ?_
  unfold denseRelu dense
  simp only [h0, h1]

/-- What block t writes back is block t of the first layer of the arrays as the kernel finds them. -/
theorem flushed0_eq (c : Dev nD) (t : Fin cfg0.N) :
    (dat0 V c).flushed 5 t
      = ((cfg0.win 5).blk t).view.read (Elt Ideal)
          (denseRelu (V c main_v13) (V c main_arg0) (V c main_arg2) (V c main_arg4) (V c main_v14)) := by
  show (cfg0.win 5).cut (grid0.coords t) ((dat0 V c).after 5 t) = _
  rw [after0_5]
  unfold out0_5
  rw [View.canon_unit_zero zeroOffsets0]
  simp only [View.ld_unit_zero (S := S5000x128) zeroOffsets0, View.ld_unit_zero (S := S128x128) zeroOffsets0,
    View.ld_unit_zero (S := S1x128) zeroOffsets0]
  rw [wrelBlock0 V c t, biasBlock0 V c t, wrootBlock0 V c t]
  funext j
  obtain ⟨p, q, rfl⟩ : ∃ (p : Fin 5000) (q : Fin 128), j = ix2 p q := ⟨j 0, j 1, eq_ix2 j⟩
  have hN : cfg0.N = 10 := N_0
  have ht : t.val < 10 := by have := t.isLt; omega
  have hn : 5000 * t.val + p.val < 50000 := by have := p.isLt; omega
  show k0_pay1 (iblk0 V c 0 t) (iblk0 V c 1 t) (V c main_arg2) (V c main_arg4) (V c main_v14) (ix2 p q)
      = denseRelu (V c main_v13) (V c main_arg0) (V c main_arg2) (V c main_arg4) (V c main_v14)
          (((cfg0.win 5).blk t).view.emb (ix2 p q))
  refine Eq.trans ?_ (congrArg (denseRelu (V c main_v13) (V c main_arg0) (V c main_arg2) (V c main_arg4) (V c main_v14))
    (outEntry0 t p q ⟨5000 * t.val + p.val, hn⟩ rfl)).symm
  exact layer1_rows (iblk0 V c 0 t) (iblk0 V c 1 t) (V c main_v13) (V c main_arg0) (V c main_arg2) (V c main_arg4) (V c main_v14)
    p q ⟨5000 * t.val + p.val, hn⟩ (fun k => aggBlock0 V c t p k ⟨5000 * t.val + p.val, hn⟩ rfl)
    (fun k => featBlock0 V c t p k ⟨5000 * t.val + p.val, hn⟩ rfl)

/-- A node's entry lies in block t exactly when each coordinate lies in the block's range on its axis. -/
theorem mem_outBlock0 (t : Fin cfg0.N) (i : S50000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v15).slice (win0_5.rect t)).set ↔ _
  rw [View.set_slice_whole, Rect.mem_set_unit]
  exact Iff.rfl

/-- Every entry of the result lies in the block numbered by its node divided by 5000, and that block is written back. -/
theorem covered0 (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  have hlt : (i 0).val / 5000 < cfg0.N := by omega
  refine ⟨⟨(i 0).val / 5000, hlt⟩, flush0_5 _, ?_⟩
  obtain ⟨-, -, -, -, -, -, -, -, -, -, e0, e1⟩ := blockIndex0 ⟨(i 0).val / 5000, hlt⟩
  rw [mem_outBlock0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e1]
    omega

/-- After the first layer's kernel, its result array holds the first layer of the arrays the kernel found. -/
theorem final0 (c : Dev nD) :
    (dat0 V c).arrAt 5 cfg0.N
      = denseRelu (V c main_v13) (V c main_arg0) (V c main_arg2) (V c main_arg4) (V c main_v14) :=
  (dat0 V c).arrAt_eq_of_cover 5 _ (fun t _ => flushed0_eq V c t) covered0

end Cert.KernelIdeal.RegionValue

end
-- ==== Proof.Region1.lean ====
/-
  The second layer's kernel, read as one function of whole arrays.

  The kernel walks ten blocks of 5000 nodes. At block t it reads rows 5000 t … 5000 t + 4999 of the aggregate and of
  the features, the two weight matrices and the bias row whole, and writes rows 5000 t … 5000 t + 4999 of its result.
  Entry (p, q) of what it writes is the dense layer at node 5000 t + p and channel q: the
  block's rows are the arrays' rows shifted by 5000 t, and nothing else in the formula depends on the block. Every
  node lies in exactly one block, the one numbered by the node divided by 5000, so the result array ends holding the
  layer at every node.
-/
import proofs.«133061_j57071525429602_1_alg».proof.Proof.Gen.KernelIdeal.Frame
import proofs.«133061_j57071525429602_1_alg».proof.Proof.Spec
import proofs.«133061_j57071525429602_1_alg».proof.Proof.Body
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.GraphConv

variable (V : (c : Dev nD) → (b : Ref sig .tc) → Buf (Elt Ideal) ((c : Thread nD τ).loc b))

theorem zeroOffsets1 : (![0, 0] : Fin 2 → Nat) = fun _ => 0 := funext fun a => by fin_cases a <;> rfl

/-- Where each window's block sits at block t: the three row-blocked windows at block row t, every window at block
    column 0, the whole-array windows at block (0, 0). Decided over the ten blocks. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at t is its rows from 5000 t on. -/
theorem aggBlock1 (c : Dev nD) (t : Fin cfg1.N) (p : Fin 5000) (k : Fin 128) (n : Fin 50000) (hn : n.val = 5000 * t.val + p.val) :
    (iblk1 V c 0 t : Vec Ideal S5000x128 .f32) (ix2 p k) = (V c main_v25 : SN.Idx → EReal) (ix2 n k) := by
  obtain ⟨e0, e1, -⟩ := blockIndex1 t
  unfold iblk1
  rw [View.read_apply]
  show V c main_v25 _ = V c main_v25 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- The features' block at t is their rows from 5000 t on. -/
theorem featBlock1 (c : Dev nD) (t : Fin cfg1.N) (p : Fin 5000) (k : Fin 128) (n : Fin 50000) (hn : n.val = 5000 * t.val + p.val) :
    (iblk1 V c 1 t : Vec Ideal S5000x128 .f32) (ix2 p k) = (V c main_v15 : SN.Idx → EReal) (ix2 n k) := by
  obtain ⟨-, -, e0, e1, -⟩ := blockIndex1 t
  unfold iblk1
  rw [View.read_apply]
  show V c main_v15 _ = V c main_v15 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- The aggregate's weights are read whole at every block. -/
theorem wrelBlock1 (c : Dev nD) (t : Fin cfg1.N) :
    (iblk1 V c 2 t : Vec Ideal S128x128 .f32) = (V c main_arg5 : SW.Idx → EReal) := by
  obtain ⟨-, -, -, -, e0, e1, -⟩ := blockIndex1 t
  funext j
  unfold iblk1
  rw [View.read_apply]
  show V c main_arg5 _ = V c main_arg5 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- The bias row is read whole at every block. -/
theorem biasBlock1 (c : Dev nD) (t : Fin cfg1.N) :
    (iblk1 V c 3 t : Vec Ideal S1x128 .f32) = (V c main_v26 : SB.Idx → EReal) := by
  obtain ⟨-, -, -, -, -, -, e0, e1, -⟩ := blockIndex1 t
  funext j
  unfold iblk1
  rw [View.read_apply]
  show V c main_v26 _ = V c main_v26 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- The features' weights are read whole at every block. -/
theorem wrootBlock1 (c : Dev nD) (t : Fin cfg1.N) :
    (iblk1 V c 4 t : Vec Ideal S128x128 .f32) = (V c main_arg7 : SW.Idx → EReal) := by
  obtain ⟨-, -, -, -, -, -, -, -, e0, e1, -⟩ := blockIndex1 t
  funext j
  unfold iblk1
  rw [View.read_apply]
  show V c main_arg7 _ = V c main_arg7 _
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- Entry (p, q) of the result's block at t is the result array's entry (5000 t + p, q). -/
theorem outEntry1 (t : Fin cfg1.N) (p : Fin 5000) (q : Fin 128) (n : Fin 50000) (hn : n.val = 5000 * t.val + p.val) :
    (((cfg1.win 5).blk t).view.emb (ix2 p q) : SN.Idx) = ix2 n q := by
  obtain ⟨-, -, -, -, -, -, -, -, -, -, e0, e1⟩ := blockIndex1 t
  funext a
  apply Fin.ext
  match a with
  | ⟨0, _⟩ => show win1_5.index t (0 : Fin 2) * 5000 + 1 * p.val = n.val; rw [e0, hn]; omega
  | ⟨1, _⟩ => show win1_5.index t (1 : Fin 2) * 128 + 1 * q.val = q.val; rw [e1]; omega

/-- A block whose rows are the aggregate's and the features' rows at node n holds, at (p, q), the second layer at
    node n and channel q. -/
theorem layer2_rows (x0 x1 : Vec Ideal S5000x128 .f32) (A h : SN.Idx → EReal) (Wrel Wroot : SW.Idx → EReal) (b : SB.Idx → EReal)
    (p : Fin 5000) (q : Fin 128) (n : Fin 50000)
    (h0 : ∀ k : Fin 128, x0 (ix2 p k) = A (ix2 n k)) (h1 : ∀ k : Fin 128, x1 (ix2 p k) = h (ix2 n k)) :
    k1_pay1 x0 x1 Wrel Wroot b (ix2 p q) = dense A h Wrel Wroot b (ix2 n q) := by
  refine (layer2_block_apply x0 x1 Wrel Wroot b p q).trans ?_
  unfold dense
  simp only [h0, h1]

/-- What block t writes back is block t of the second layer of the arrays as the kernel finds them. -/
theorem flushed1_eq (c : Dev nD) (t : Fin cfg1.N) :
    (dat1 V c).flushed 5 t
      = ((cfg1.win 5).blk t).view.read (Elt Ideal)
          (dense (V c main_v25) (V c main_v15) (V c main_arg5) (V c main_arg7) (V c main_v26)) := by
  show (cfg1.win 5).cut (grid1.coords t) ((dat1 V c).after 5 t) = _
  rw [after1_5]
  unfold out1_5
  rw [View.canon_unit_zero zeroOffsets1]
  simp only [View.ld_unit_zero (S := S5000x128) zeroOffsets1, View.ld_unit_zero (S := S128x128) zeroOffsets1,
    View.ld_unit_zero (S := S1x128) zeroOffsets1]
  rw [wrelBlock1 V c t, biasBlock1 V c t, wrootBlock1 V c t]
  funext j
  obtain ⟨p, q, rfl⟩ : ∃ (p : Fin 5000) (q : Fin 128), j = ix2 p q := ⟨j 0, j 1, eq_ix2 j⟩
  have hN : cfg1.N = 10 := N_1
  have ht : t.val < 10 := by have := t.isLt; omega
  have hn : 5000 * t.val + p.val < 50000 := by have := p.isLt; omega
  show k1_pay1 (iblk1 V c 0 t) (iblk1 V c 1 t) (V c main_arg5) (V c main_arg7) (V c main_v26) (ix2 p q)
      = dense (V c main_v25) (V c main_v15) (V c main_arg5) (V c main_arg7) (V c main_v26)
          (((cfg1.win 5).blk t).view.emb (ix2 p q))
  refine Eq.trans ?_ (congrArg (dense (V c main_v25) (V c main_v15) (V c main_arg5) (V c main_arg7) (V c main_v26))
    (outEntry1 t p q ⟨5000 * t.val + p.val, hn⟩ rfl)).symm
  exact layer2_rows (iblk1 V c 0 t) (iblk1 V c 1 t) (V c main_v25) (V c main_v15) (V c main_arg5) (V c main_arg7) (V c main_v26)
    p q ⟨5000 * t.val + p.val, hn⟩ (fun k => aggBlock1 V c t p k ⟨5000 * t.val + p.val, hn⟩ rfl)
    (fun k => featBlock1 V c t p k ⟨5000 * t.val + p.val, hn⟩ rfl)

/-- A node's entry lies in block t exactly when each coordinate lies in the block's range on its axis. -/
theorem mem_outBlock1 (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v27).slice (win1_5.rect t)).set ↔ _
  rw [View.set_slice_whole, Rect.mem_set_unit]
  exact Iff.rfl

/-- Every entry of the result lies in the block numbered by its node divided by 5000, and that block is written back. -/
theorem covered1 (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  have hlt : (i 0).val / 5000 < cfg1.N := by omega
  refine ⟨⟨(i 0).val / 5000, hlt⟩, flush1_5 _, ?_⟩
  obtain ⟨-, -, -, -, -, -, -, -, -, -, e0, e1⟩ := blockIndex1 ⟨(i 0).val / 5000, hlt⟩
  rw [mem_outBlock1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]
    omega

/-- After the second layer's kernel, its result array holds the second layer of the arrays the kernel found. -/
theorem final1 (c : Dev nD) :
    (dat1 V c).arrAt 5 cfg1.N
      = dense (V c main_v25) (V c main_v15) (V c main_arg5) (V c main_arg7) (V c main_v26) :=
  (dat1 V c).arrAt_eq_of_cover 5 _ (fun t _ => flushed1_eq V c t) covered1

end Cert.KernelIdeal.RegionValue

end
-- ==== Proof.Reference.lean ====
/-
  The reference's result is the two-layer graph convolution of the specification.

  The reference computes each layer on whole arrays: the aggregate of the neighbours' features times one weight matrix,
  plus the bias broadcast down the nodes, plus the node features times a second weight matrix; the first layer is then
  clamped at zero from below. On the extended reals each product read at a node and a channel is the sum over the 128
  shared channels of left entry times right entry, the broadcast bias read there is the bias's entry at the channel, and
  the clamp is a maximum with zero. So each layer of the reference's term is, index by index, the dense layer of the
  specification, with the additions in the same order. The neighbour aggregation (a gather by source node followed by a
  scatter-add by destination node) is never opened: it is carried as one function `agg` of the edge list and the features.
-/
import proofs.«133061_j57071525429602_1_alg».proof.Proof.Gen.ReferenceIdeal.Run
import proofs.«133061_j57071525429602_1_alg».proof.Proof.Gen.ReferenceIdeal.Read
import proofs.«133061_j57071525429602_1_alg».proof.Proof.Spec
import proofs.«133061_j57071525429602_1_alg».proof.Proof.LibMatmulSum

noncomputable section

open Idealize.ShloMosaic Idealize.ShloMosaic.TcCoe Idealize.SL.Sem

namespace Cert.ReferenceIdeal.RefValue

open Cert.ReferenceIdeal Cert.ReferenceIdeal.Gen Cert.GraphConv
open Idealize.ShloMosaic.ValueIdx

/-- The bias vector broadcast first to a row and then down every node, read at a node and a channel: the vector's
    entry at that channel. -/
theorem bias_apply (b : FVec Ideal S128 .f32) (i : S50000x128.Idx) :
    broadcastInDim S50000x128 ![0, 1] bcast_S1x128_S50000x128_0_1 (broadcastInDim S1x128 ![1] bcast_S128_S1x128_1 b) i
      = row b (ix2 0 (i 1)) := by
  rw [broadcastInDim_apply _ bcast_S1x128_S50000x128_0_1 _ i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ bcast_S128_S1x128_1 b (ix2 0 (i 1)) (ix1 (i 1)) (fun a => match a with
    | ⟨0, _⟩ => by show (i 1).val = if (128 : Nat) = 1 then 0 else (i 1).val; rw [if_neg (by decide)])]
  rfl

/-- One layer as the reference writes it — the aggregate's product with its weights, plus the broadcast bias, plus the
    features' product with theirs — is the dense layer of the specification, at every node and channel. -/
theorem layer_eq (A h : FVec Ideal S50000x128 .f32) (W W' : FVec Ideal S128x128 .f32) (b : FVec Ideal S128 .f32) :
    addf (addf (Host.dotGeneral dot_S50000x128_S128x128_S50000x128_1_0_0_1_n_n none A W)
        (broadcastInDim S50000x128 ![0, 1] bcast_S1x128_S50000x128_0_1 (broadcastInDim S1x128 ![1] bcast_S128_S1x128_1 b)))
      (Host.dotGeneral dot_S50000x128_S128x128_S50000x128_1_0_0_1_n_n none h W')
    = dense A h W W' (row b) := by
  funext i
  rw [addf_apply, addf_apply, bias_apply]
  simp only [Host.dotGeneral]
  rw [MatmulSum.dotGeneral_apply dot_S50000x128_S128x128_S50000x128_1_0_0_1_n_n rfl rfl rfl rfl rfl rfl,
    MatmulSum.dotGeneral_apply dot_S50000x128_S128x128_S50000x128_1_0_0_1_n_n rfl rfl rfl rfl rfl rfl]
  rfl

/-- The clamp at zero as the reference writes it: a maximum with the zero constant broadcast over the array. -/
theorem relu_apply (x : FVec Ideal S50000x128 .f32) (i : S50000x128.Idx) :
    maximumf x (broadcastInDim S50000x128 ![] bcast_S_S50000x128 (constant (F := Ideal) S_ .f32 0x00000000#32)) i
      = max (x i) (Ideal.ofBits .f32 0x00000000#32) := by
  rw [maximumf_apply, broadcastInDim_apply _ bcast_S_S50000x128 _ i ix0 (fun a => a.elim0), constant_apply]

/-- The neighbour aggregation as the reference's host operations spell it. -/
def agg (ei : IVec S2x625000 32) (h : FVec Ideal S50000x128 .f32) : FVec Ideal S50000x128 .f32 :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 (shapeCast _ (extractStridedSlice S1x625000 ![1, 0] ei slices_S2x625000_S1x625000_1_0) shapeCasts_S1x625000_S625000))
    (Host.gather gather_S50000x128_S625000x1_S625000x128_1_0_n_n_0_1_1128 h
      (broadcastInDim S625000x1 ![0] bcast_S625000_S625000x1_0
        (select (cmpi .slt (shapeCast _ (extractStridedSlice S1x625000 ![0, 0] ei slices_S2x625000_S1x625000_0_0) shapeCasts_S1x625000_S625000) (broadcastInDim S625000 ![] bcast_S_S625000 (constantI S_ 32 0#32)))
          (addi (shapeCast _ (extractStridedSlice S1x625000 ![0, 0] ei slices_S2x625000_S1x625000_0_0) shapeCasts_S1x625000_S625000) (broadcastInDim S625000 ![] bcast_S_S625000 (constantI S_ 32 50000#32)))
          (shapeCast _ (extractStridedSlice S1x625000 ![0, 0] ei slices_S2x625000_S1x625000_0_0) shapeCasts_S1x625000_S625000))))

/-- The first layer's output as the reference computes it. -/
def hidden (m : (ℓ : Loc nD τ sig) → Buf (Elt Ideal) ℓ) (c : Dev nD) : SN.Idx → EReal :=
  denseRelu (agg (m ((c.tc : Thread nD τ).loc main_arg1)) (m ((c.tc : Thread nD τ).loc main_arg0)))
    (m ((c.tc : Thread nD τ).loc main_arg0)) (m ((c.tc : Thread nD τ).loc main_arg2)) (m ((c.tc : Thread nD τ).loc main_arg4))
    (row (m ((c.tc : Thread nD τ).loc main_arg3)))

/-- The first layer as the reference writes it — the layer's three summands, then the clamp — is the clamped dense layer
    of the specification. -/
theorem reluLayer_eq (A h : FVec Ideal S50000x128 .f32) (W W' : FVec Ideal S128x128 .f32) (b : FVec Ideal S128 .f32) :
    maximumf
      (addf (addf (Host.dotGeneral dot_S50000x128_S128x128_S50000x128_1_0_0_1_n_n none A W)
          (broadcastInDim S50000x128 ![0, 1] bcast_S1x128_S50000x128_0_1 (broadcastInDim S1x128 ![1] bcast_S128_S1x128_1 b)))
        (Host.dotGeneral dot_S50000x128_S128x128_S50000x128_1_0_0_1_n_n none h W'))
      (broadcastInDim S50000x128 ![] bcast_S_S50000x128 (constant (F := Ideal) S_ .f32 0x00000000#32))
    = denseRelu A h W W' (row b) := by
  funext i
  rw [relu_apply, layer_eq]
  rfl

/-- The reference's result is the second dense layer applied to the first layer's output and its aggregate. Both layers
    of the reference's term are folded into the specification's functions; what remains on the two sides is the same
    term, the aggregation kept closed. -/
theorem res_eq (m : (ℓ : Loc nD τ sig) → Buf (Elt Ideal) ℓ) (c : Dev nD) :
    Cert.ReferenceIdeal.Value.res_main_v36 (F := Ideal) m c
      = dense (agg (m ((c.tc : Thread nD τ).loc main_arg1)) (hidden m c)) (hidden m c)
          (m ((c.tc : Thread nD τ).loc main_arg5)) (m ((c.tc : Thread nD τ).loc main_arg7))
          (row (m ((c.tc : Thread nD τ).loc main_arg6))) := by
  rw [← layer_eq (agg (m ((c.tc : Thread nD τ).loc main_arg1)) (hidden m c)) (hidden m c) (m ((c.tc : Thread nD τ).loc main_arg5)) (m ((c.tc : Thread nD τ).loc main_arg7)) (m ((c.tc : Thread nD τ).loc main_arg6))]
  unfold hidden
  rw [← reluLayer_eq (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (m ((c.tc : Thread nD τ).loc main_arg3))]
  unfold Cert.ReferenceIdeal.Value.res_main_v36 agg
  rfl

end Cert.ReferenceIdeal.RefValue
end
-- ==== Proof.lean ====
/-
  A two-layer graph convolution as a pair of TPU kernels with host glue, against the same network in plain array code:
  equal results on the extended reals.

  Each layer is  out = agg(h) · Wrel + b + h · Wroot,  with agg(h) the sum over incoming edges of the source nodes' rows of
  h, and the first layer clamped at zero from below. The kernel program computes agg on the host (a gather of rows by
  source index, then an addition by destination index into zeros) and the dense part in a kernel over ten blocks of
  5000 nodes, each block two matrix products into zero accumulators plus the bias row; the reference computes the dense
  part with two whole-array products. On the extended reals a matrix product into a zero accumulator and the host's
  product are the same sum over the 128 shared channels, a change of float format is the identity, the row blocks tile the
  50000 nodes, and both programs add the three summands in the same order — so layer by layer the two are the same function
  of the same arrays (`Cert.GraphConv.dense`, `denseRelu`), and no appeal to finiteness of the inputs is needed. The
  neighbour aggregate is never opened: both programs spell it with the same host operations over the same shapes, and it is
  carried through as one closed function that meets itself.

  The pieces: Spec (the layer as a function), Region0 / Region1 (what each kernel leaves in its output array, from its
  blocks), KernelHost (what the host operations hand to each kernel), KernelRun (the kernel program's run with the result
  array named), Reference (the reference's result as the specification); here they are joined, and the five claims closed.
-/
import proofs.«133061_j57071525429602_1_alg».proof.Defs
import proofs.«133061_j57071525429602_1_alg».proof.Proof.Gen.Kernel
import proofs.«133061_j57071525429602_1_alg».proof.Proof.Gen.Kernel.Skeleton
import proofs.«133061_j57071525429602_1_alg».proof.Proof.Gen.Kernel.Launch
import proofs.«133061_j57071525429602_1_alg».proof.Proof.Gen.Kernel.Points
import proofs.«133061_j57071525429602_1_alg».proof.Proof.Gen.Kernel.Frame
import proofs.«133061_j57071525429602_1_alg».proof.Proof.Gen.KernelIdeal
import proofs.«133061_j57071525429602_1_alg».proof.Proof.Gen.KernelIdeal.Skeleton
import proofs.«133061_j57071525429602_1_alg».proof.Proof.Gen.KernelIdeal.Launch
import proofs.«133061_j57071525429602_1_alg».proof.Proof.Gen.KernelIdeal.Points
import proofs.«133061_j57071525429602_1_alg».proof.Proof.Gen.KernelIdeal.Frame
import proofs.«133061_j57071525429602_1_alg».proof.Proof.Gen.ReferenceIdeal
import proofs.«133061_j57071525429602_1_alg».proof.Proof.Gen.Pre_finite_inputs
import proofs.«133061_j57071525429602_1_alg».proof.Proof.Gen.ReferenceIdeal.Run
import proofs.«133061_j57071525429602_1_alg».proof.Proof.Gen.ReferenceIdeal.Read
import proofs.«133061_j57071525429602_1_alg».proof.Proof.Spec
import proofs.«133061_j57071525429602_1_alg».proof.Proof.KernelRun
import proofs.«133061_j57071525429602_1_alg».proof.Proof.KernelHost
import proofs.«133061_j57071525429602_1_alg».proof.Proof.Region0
import proofs.«133061_j57071525429602_1_alg».proof.Proof.Region1
import proofs.«133061_j57071525429602_1_alg».proof.Proof.Reference
import Idealize.ShloMosaic.Adequacy
import Idealize.ShloMosaic.Init

noncomputable section

open Idealize.ShloMosaic Idealize.ShloMosaic.TcCoe Idealize.SL.Sem

/-! ## The kernel program's result as the specification -/

namespace Cert.KernelIdeal.Final

open Cert.KernelIdeal Cert.KernelIdeal.Gen Cert.GraphConv Cert.KernelIdeal.HostValue Cert.KernelIdeal.RegionValue

variable (m : (ℓ : Loc nD τ sig) → Buf (Elt Ideal) ℓ) (ρ : Dev nD → PrngReg)

/-- The first layer's output: the clamped dense layer of the aggregated and the plain input features. -/
def hidden (c : Dev nD) : SN.Idx → EReal :=
  denseRelu (agg (m ((c.tc : Thread nD τ).loc main_arg1)) (m ((c.tc : Thread nD τ).loc main_arg0)))
    (m ((c.tc : Thread nD τ).loc main_arg0)) (m ((c.tc : Thread nD τ).loc main_arg2)) (m ((c.tc : Thread nD τ).loc main_arg4))
    (row (m ((c.tc : Thread nD τ).loc main_arg3)))

/-- The whole network's output: the dense layer of the aggregated and the plain hidden features. -/
def output (c : Dev nD) : SN.Idx → EReal :=
  dense (agg (m ((c.tc : Thread nD τ).loc main_arg1)) (hidden m c)) (hidden m c)
    (m ((c.tc : Thread nD τ).loc main_arg5)) (m ((c.tc : Thread nD τ).loc main_arg7))
    (row (m ((c.tc : Thread nD τ).loc main_arg6)))

/-- What the first kernel leaves in its output array is the first layer's output. -/
theorem hid_eq (c : Dev nD) : hid m ρ c = hidden m c := by
  refine (W2_arr m ρ c 5).trans ((final0 (V1 m ρ) c).trans ?_)
  rw [V1_v13 m ρ c, V1_arg0 m ρ c, V1_arg2 m ρ c, V1_arg4 m ρ c, V1_v14 m ρ c]
  rfl

/-- What the second kernel leaves in the result array is the network's output. -/
theorem result_eq (c : Dev nD) : (W4 m ρ c (Proc.devRef .tc main_v27) : SN.Idx → EReal) = output m c := by
  refine (W4_arr m ρ c 5).trans ((final1 (V3 m ρ) c).trans ?_)
  rw [V3_v25 m ρ c, V3_v15 m ρ c, V3_arg5 m ρ c, V3_arg7 m ρ c, V3_v26 m ρ c, hid_eq m ρ c]
  rfl

end Cert.KernelIdeal.Final

/-! ## The claims -/

namespace Cert.Proof

open Cert.GraphConv

/-- The three programs run to the end without a fault and leave their arguments as launched: the two kernel programs by
    their generated frames, the reference by its generated run with the result forgotten. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs spell the neighbour aggregate with the same host operations over the same shapes. -/
theorem agg_eq (ei : IVec ⟨2, ![2, 625000]⟩ 32) (h : FVec Ideal ⟨2, ![50000, 128]⟩ .f32) :
    Cert.ReferenceIdeal.RefValue.agg ei h = Cert.KernelIdeal.HostValue.agg ei h := rfl

/-- From memories that agree on the arguments both idealized programs end with the network's output in their result
    arrays: the kernel program by its run, the two kernels' block results and the host operations between them; the
    reference by its run read as the specification; the two aggregates are one function. -/
theorem algebraic : Cert.algebraic_KernelIdeal_ReferenceIdeal := by
  intro m ρ m' ρ' _ hagree
  refine ⟨fun c => Cert.KernelIdeal.Final.output m c, ?_, ?_⟩
  · exact (θ_run Cert.KernelIdeal.defs _ _).mono
      (fun _ h c => ⟨(h c).1.trans (Cert.KernelIdeal.Final.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.res_eq m' c]
    unfold Cert.ReferenceIdeal.RefValue.hidden Cert.KernelIdeal.Final.output Cert.KernelIdeal.Final.hidden
    rw [e0, e1, e2, e3, e4, e5, e6, e7]
    simp only [agg_eq]

/-- The five claims: the three frames, the idealization's ledger (empty: nothing to show), the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
